-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x262144 : Shape := ⟨2, ![128, 262144]⟩
abbrev S_ : Shape := ⟨0, ![]⟩

class Facts : Prop where
  bcast_S_S128x262144 : S_.BroadcastsInDim S128x262144 (![] : Fin 0 → Fin S128x262144.rank)
  reducesTo_S128x262144_S_d0_1 : S128x262144.ReducesTo [0, 1] S_
  h_S_ : 0 < S_.numel

variable [Facts]

def fn {F : FTy → Type} [FloatOps F] (main_arg0 : FVec F S128x262144 .f32) (main_arg1 : IVec S128x262144 32) (main_arg2 : FVec F S128x262144 .f32) : IVec S_ 1 :=
  let main_v0 : FVec F S128x262144 .f32 := Host.absf main_arg0
  let main_cst : FVec F S_ .f32 := constant S_ .f32 0x7F800000#32
  let main_v1 : FVec F S128x262144 .f32 := broadcastInDim S128x262144 ![] bcast_S_S128x262144 main_cst
  let main_v2 : IVec S128x262144 1 := cmpf .olt main_v0 main_v1
  let main_c : IVec S_ 1 := constantI S_ 1 1#1
  let main_v3 : IVec S_ 1 := (fun x v => Host.reduce IntOp.andi x v reducesTo_S128x262144_S_d0_1 h_S_) main_v2 main_c
  let main_v4 : FVec F S128x262144 .f32 := Host.absf main_arg2
  let main_cst_0 : FVec F S_ .f32 := constant S_ .f32 0x7F800000#32
  let main_v5 : FVec F S128x262144 .f32 := broadcastInDim S128x262144 ![] bcast_S_S128x262144 main_cst_0
  let main_v6 : IVec S128x262144 1 := cmpf .olt main_v4 main_v5
  let main_c_1 : IVec S_ 1 := constantI S_ 1 1#1
  let main_v7 : IVec S_ 1 := (fun x v => Host.reduce IntOp.andi x v reducesTo_S128x262144_S_d0_1 h_S_) main_v6 main_c_1
  let main_v8 : IVec S_ 1 := andi main_v3 main_v7
  main_v8
-- ==== Kernel.lean ====
abbrev S128x262144 : Shape := ⟨2, ![128, 262144]⟩
abbrev S_ : Shape := ⟨0, ![]⟩
abbrev S128x262144x1 : Shape := ⟨3, ![128, 262144, 1]⟩
abbrev S1 : Shape := ⟨1, ![1]⟩
abbrev S1x1x1 : Shape := ⟨3, ![1, 1, 1]⟩
abbrev S8x262144 : Shape := ⟨2, ![8, 262144]⟩
abbrev S128x524288 : Shape := ⟨2, ![128, 524288]⟩
abbrev S67108864 : Shape := ⟨1, ![67108864]⟩

abbrev nBuf : Space → Nat
  | .hbm => 28
  | .vmem => 3
  | .smem => 0
  | _ => 0

abbrev bufTy : (tb : Table) → Fin (tcTables nBuf tb) → BufTy
  | .hbm, ⟨0, _⟩ => ⟨S128x262144, .f32⟩
  | .hbm, ⟨1, _⟩ => ⟨S128x262144, .i32⟩
  | .hbm, ⟨2, _⟩ => ⟨S128x262144, .f32⟩
  | .hbm, ⟨3, _⟩ => ⟨S_, .i32⟩
  | .hbm, ⟨4, _⟩ => ⟨S128x262144, .i32⟩
  | .hbm, ⟨5, _⟩ => ⟨S128x262144, .i1⟩
  | .hbm, ⟨6, _⟩ => ⟨S_, .i32⟩
  | .hbm, ⟨7, _⟩ => ⟨S128x262144, .i32⟩
  | .hbm, ⟨8, _⟩ => ⟨S128x262144, .i32⟩
  | .hbm, ⟨9, _⟩ => ⟨S128x262144, .i32⟩
  | .hbm, ⟨10, _⟩ => ⟨S128x262144x1, .i32⟩
  | .hbm, ⟨11, _⟩ => ⟨S1, .i32⟩
  | .hbm, ⟨12, _⟩ => ⟨S_, .i32⟩
  | .hbm, ⟨13, _⟩ => ⟨S128x262144x1, .i32⟩
  | .hbm, ⟨14, _⟩ => ⟨S128x262144x1, .i1⟩
  | .hbm, ⟨15, _⟩ => ⟨S1x1x1, .i32⟩
  | .hbm, ⟨16, _⟩ => ⟨S128x262144x1, .i32⟩
  | .hbm, ⟨17, _⟩ => ⟨S128x262144x1, .i1⟩
  | .hbm, ⟨18, _⟩ => ⟨S128x262144x1, .i1⟩
  | .hbm, ⟨19, _⟩ => ⟨S_, .i1⟩
  | .hbm, ⟨20, _⟩ => ⟨S128x262144, .i1⟩
  | .hbm, ⟨21, _⟩ => ⟨S128x262144, .f32⟩
  | .hbm, ⟨22, _⟩ => ⟨S_, .f32⟩
  | .hbm, ⟨23, _⟩ => ⟨S128x262144, .f32⟩
  | .hbm, ⟨24, _⟩ => ⟨S128x262144, .f32⟩
  | .hbm, ⟨25, _⟩ => ⟨S128x262144, .f32⟩
  | .hbm, ⟨26, _⟩ => ⟨S128x524288, .f32⟩
  | .hbm, ⟨27, _⟩ => ⟨S67108864, .f32⟩
  | .local _ .vmem, ⟨0, _⟩ => ⟨S8x262144, .f32⟩
  | .local _ .vmem, ⟨1, _⟩ => ⟨S8x262144, .f32⟩
  | .local _ .vmem, ⟨2, _⟩ => ⟨S8x262144, .f32⟩
  | _, _ => ⟨S128x262144, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x262144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x262144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x262144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

class Facts₀ : Prop where
  bcast_S_S128x262144 : S_.BroadcastsInDim S128x262144 (![] : Fin 0 → Fin S128x262144.rank)
  shapeCasts_S128x262144_S128x262144x1 : S128x262144.ShapeCasts S128x262144x1
  bcast_S_S128x262144x1 : S_.BroadcastsInDim S128x262144x1 (![] : Fin 0 → Fin S128x262144x1.rank)
  bcast_S1_S1x1x1_2 : S1.BroadcastsInDim S1x1x1 (![2] : Fin 1 → Fin S1x1x1.rank)
  bcast_S1x1x1_S128x262144x1_0_1_2 : S1x1x1.BroadcastsInDim S128x262144x1 (![0, 1, 2] : Fin 3 → Fin S128x262144x1.rank)
  reducesTo_S128x262144x1_S128x262144_d2 : S128x262144x1.ReducesTo [2] S128x262144
  h_S_ : 0 < S_.numel
  inb_S8x262144_S8x262144_0_0 : ∀ a, (![0, 0] : Fin 2 → Nat) a + S8x262144.size a ≤ S8x262144.size a
  h_S8x262144 : 0 < S8x262144.numel
  shapeCasts_S8x262144_S8x262144 : S8x262144.ShapeCasts S8x262144
  concatenates_S128x262144_S128x262144_S128x524288_d1 : Shape.Concatenates [S128x262144, S128x262144] S128x524288 1
  shapeCasts_S128x524288_S67108864 : S128x524288.ShapeCasts S67108864
  gather_S128x262144_S128x262144x1_S128x262144_n_1_0_0_1_2_11_wf : GatherDims.WF S128x262144 S128x262144x1 S128x262144 [] [1] [0] [1] [0] 2 ![1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x262144.size a ≤ S128x262144.size a
  hwx0_0 : ∀ i : grid0.Coords, EltTy.bits .f32 = 32 ∨ (Rect.block (s := S128x262144) S8x262144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x262144.size a ≤ S128x262144.size a
  hwx0_1 : ∀ i : grid0.Coords, EltTy.bits .f32 = 32 ∨ (Rect.block (s := S128x262144) S8x262144.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x262144.size a ≤ S128x262144.size a
  hwx0_2 : ∀ i : grid0.Coords, EltTy.bits .f32 = 32 ∨ (Rect.block (s := S128x262144) S8x262144.size (cc0_transform_2 i) (hinb0_2 i)).WholeWords (EltTy.packing .f32)

variable [Facts₀]

def gather_S128x262144_S128x262144x1_S128x262144_n_1_0_0_1_2_11 : GatherDims S128x262144 S128x262144x1 S128x262144 where
  offsetDims := []
  collapsedSliceDims := [1]
  operandBatchingDims := [0]
  startIndicesBatchingDims := [0]
  startIndexMap := [1]
  indexVectorDim := 2
  sliceSizes := ![1, 1]
  wf := gather_S128x262144_S128x262144x1_S128x262144_n_1_0_0_1_2_11_wf

abbrev win0_0 : Pipeline.Window sig grid0 :=
  Pipeline.Window.ofSpec (Memref.whole main_v0) S8x262144.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x262144.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x262144.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x262144 : Shape := ⟨2, ![128, 262144]⟩
abbrev S_ : Shape := ⟨0, ![]⟩
abbrev S128x262144x1 : Shape := ⟨3, ![128, 262144, 1]⟩
abbrev S1 : Shape := ⟨1, ![1]⟩
abbrev S1x1x1 : Shape := ⟨3, ![1, 1, 1]⟩
abbrev S128x524288 : Shape := ⟨2, ![128, 524288]⟩
abbrev S67108864 : Shape := ⟨1, ![67108864]⟩

abbrev nBuf : Space → Nat
  | .hbm => 31
  | .vmem => 0
  | .smem => 0
  | _ => 0

abbrev bufTy : (tb : Table) → Fin (tcTables nBuf tb) → BufTy
  | .hbm, ⟨0, _⟩ => ⟨S128x262144, .f32⟩
  | .hbm, ⟨1, _⟩ => ⟨S128x262144, .i32⟩
  | .hbm, ⟨2, _⟩ => ⟨S128x262144, .f32⟩
  | .hbm, ⟨3, _⟩ => ⟨S_, .i32⟩
  | .hbm, ⟨4, _⟩ => ⟨S128x262144, .i32⟩
  | .hbm, ⟨5, _⟩ => ⟨S128x262144, .i1⟩
  | .hbm, ⟨6, _⟩ => ⟨S_, .i32⟩
  | .hbm, ⟨7, _⟩ => ⟨S128x262144, .i32⟩
  | .hbm, ⟨8, _⟩ => ⟨S128x262144, .i32⟩
  | .hbm, ⟨9, _⟩ => ⟨S128x262144, .i32⟩
  | .hbm, ⟨10, _⟩ => ⟨S128x262144x1, .i32⟩
  | .hbm, ⟨11, _⟩ => ⟨S1, .i32⟩
  | .hbm, ⟨12, _⟩ => ⟨S_, .i32⟩
  | .hbm, ⟨13, _⟩ => ⟨S128x262144x1, .i32⟩
  | .hbm, ⟨14, _⟩ => ⟨S128x262144x1, .i1⟩
  | .hbm, ⟨15, _⟩ => ⟨S1x1x1, .i32⟩
  | .hbm, ⟨16, _⟩ => ⟨S128x262144x1, .i32⟩
  | .hbm, ⟨17, _⟩ => ⟨S128x262144x1, .i1⟩
  | .hbm, ⟨18, _⟩ => ⟨S128x262144x1, .i1⟩
  | .hbm, ⟨19, _⟩ => ⟨S_, .i1⟩
  | .hbm, ⟨20, _⟩ => ⟨S128x262144, .i1⟩
  | .hbm, ⟨21, _⟩ => ⟨S128x262144, .f32⟩
  | .hbm, ⟨22, _⟩ => ⟨S_, .f32⟩
  | .hbm, ⟨23, _⟩ => ⟨S128x262144, .f32⟩
  | .hbm, ⟨24, _⟩ => ⟨S128x262144, .f32⟩
  | .hbm, ⟨25, _⟩ => ⟨S_, .f32⟩
  | .hbm, ⟨26, _⟩ => ⟨S128x262144, .f32⟩
  | .hbm, ⟨27, _⟩ => ⟨S128x262144, .f32⟩
  | .hbm, ⟨28, _⟩ => ⟨S128x262144, .f32⟩
  | .hbm, ⟨29, _⟩ => ⟨S128x524288, .f32⟩
  | .hbm, ⟨30, _⟩ => ⟨S67108864, .f32⟩
  | _, _ => ⟨S128x262144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩

abbrev nD : Nat := 1
abbrev τ : Topo := Topo.v7x

variable {F : FTy → Type} [FloatOps F]

class Facts₀ : Prop where
  bcast_S_S128x262144 : S_.BroadcastsInDim S128x262144 (![] : Fin 0 → Fin S128x262144.rank)
  shapeCasts_S128x262144_S128x262144x1 : S128x262144.ShapeCasts S128x262144x1
  bcast_S_S128x262144x1 : S_.BroadcastsInDim S128x262144x1 (![] : Fin 0 → Fin S128x262144x1.rank)
  bcast_S1_S1x1x1_2 : S1.BroadcastsInDim S1x1x1 (![2] : Fin 1 → Fin S1x1x1.rank)
  bcast_S1x1x1_S128x262144x1_0_1_2 : S1x1x1.BroadcastsInDim S128x262144x1 (![0, 1, 2] : Fin 3 → Fin S128x262144x1.rank)
  reducesTo_S128x262144x1_S128x262144_d2 : S128x262144x1.ReducesTo [2] S128x262144
  h_S_ : 0 < S_.numel
  concatenates_S128x262144_S128x262144_S128x524288_d1 : Shape.Concatenates [S128x262144, S128x262144] S128x524288 1
  shapeCasts_S128x524288_S67108864 : S128x524288.ShapeCasts S67108864
  gather_S128x262144_S128x262144x1_S128x262144_n_1_0_0_1_2_11_wf : GatherDims.WF S128x262144 S128x262144x1 S128x262144 [] [1] [0] [1] [0] 2 ![1, 1]

variable [Facts₀]

def gather_S128x262144_S128x262144x1_S128x262144_n_1_0_0_1_2_11 : GatherDims S128x262144 S128x262144x1 S128x262144 where
  offsetDims := []
  collapsedSliceDims := [1]
  operandBatchingDims := [0]
  startIndicesBatchingDims := [0]
  startIndexMap := [1]
  indexVectorDim := 2
  sliceSizes := ![1, 1]
  wf := gather_S128x262144_S128x262144x1_S128x262144_n_1_0_0_1_2_11_wf

class Facts : Prop extends Facts₀ where

variable [Facts]
-- ==== Proof.ScaleComm.lean ====
/-
  The one law that joins the two programs.

  Both programs return the flattened rows `[positions | gathered + σ·noise]`, with the same
  gather of `positions` along each row and the same 32-bit word for `σ`.  They differ in a
  single place: the kernel multiplies the noise by the splat of `σ` on the right (`z · σ`),
  the reference multiplies the broadcast of `σ` by the noise on the left (`σ · z`).  On the
  extended reals multiplication is commutative without exception (`0 · ±∞ = ±∞ · 0` included),
  so the two sums agree entry by entry and no finiteness of the inputs is used.
-/
import Idealize.ShloMosaic.PureOps.Ideal
import Idealize.ShloMosaic.Lib.ValueIdx

noncomputable section

namespace Cert.Resample

open Idealize.ShloMosaic

/-- Entry by entry `g + z · σ = g + σ · z` on the extended reals: the scalar splat on the right of the
    product (the kernel's spelling) against the rank-0 constant broadcast on the left (the reference's). -/
theorem add_scaled_comm {s : Shape} (g z : FVec Ideal s .f32) (w : BitVec 32)
    (h : (⟨0, ![]⟩ : Shape).BroadcastsInDim s (![] : Fin 0 → Fin s.rank)) :
    addf g (mulf z (broadcast s (Scalar.ofBits (F := Ideal) .f32 w)))
      = addf g (mulf (broadcastInDim s ![] h (constant (F := Ideal) ⟨0, ![]⟩ .f32 w)) z) := by
  funext i
  show g i + z i * Ideal.ofBits .f32 w = g i + Ideal.ofBits .f32 w * z i
  rw [mul_comm]

end Cert.Resample

end
-- ==== Proof.SharedHost.lean ====
/-
  The two host stretches the programs share, each as ONE function of its operands.

  `rowGather pos idx` is jnp's `take_along_axis(pos, idx, axis=1)` as the lowered module spells it: a negative
  index is wrapped once by the row length 262144, the wrapped index is given a trailing unit axis, entry `(b, n)`
  of the result is `pos[b, idx'[b, n]]` (a gather batched over the rows), and where the wrapped index is outside
  `[0, 262143]` the entry is the fill word `0x7FC00000` instead.
  `flatRows a b` is `concatenate([a, b], axis=1).reshape(-1)`: per row the 262144 entries of `a` then those of `b`,
  the 128 rows laid end to end.

  The shape relations the operations take are hypotheses here, so that either program supplies its own proofs of
  them; the functions are never opened by the certificate: both programs apply the same two functions, and only
  what goes INTO them is compared.
-/
import Idealize.ShloMosaic.PureOps
import Idealize.ShloMosaic.Lib.StableHlo

noncomputable section

namespace Cert.Resample

open Idealize.ShloMosaic

abbrev Rows : Shape := ⟨2, ![128, 262144]⟩
abbrev Rows1 : Shape := ⟨3, ![128, 262144, 1]⟩
abbrev Scal : Shape := ⟨0, ![]⟩
abbrev One1 : Shape := ⟨1, ![1]⟩
abbrev One3 : Shape := ⟨3, ![1, 1, 1]⟩
abbrev Rows2 : Shape := ⟨2, ![128, 524288]⟩
abbrev Flat : Shape := ⟨1, ![67108864]⟩

variable {F : FTy → Type} [FloatOps F]

/-- The index operand as the gather reads it: negative entries wrapped by the row length, a trailing unit axis added. -/
def wrapIdx (hb : Scal.BroadcastsInDim Rows (![] : Fin 0 → Fin Rows.rank)) (hc : Rows.ShapeCasts Rows1)
    (idx : IVec Rows 32) : IVec Rows1 32 :=
  shapeCast Rows1 (select (cmpi .slt idx (broadcastInDim Rows ![] hb (constantI Scal 32 0#32)))
    (addi idx (broadcastInDim Rows ![] hb (constantI Scal 32 262144#32))) idx) hc

/-- `take_along_axis(pos, idx, axis=1)`, out-of-range entries filled with the word `0x7FC00000`. -/
def rowGather (hb : Scal.BroadcastsInDim Rows (![] : Fin 0 → Fin Rows.rank)) (hc : Rows.ShapeCasts Rows1)
    (hb1 : Scal.BroadcastsInDim Rows1 (![] : Fin 0 → Fin Rows1.rank))
    (h13 : One1.BroadcastsInDim One3 (![2] : Fin 1 → Fin One3.rank))
    (h33 : One3.BroadcastsInDim Rows1 (![0, 1, 2] : Fin 3 → Fin Rows1.rank))
    (hr : Rows1.ReducesTo [2] Rows) (hp : 0 < Scal.numel) (G : GatherDims Rows Rows1 Rows)
    (pos : FVec F Rows .f32) (idx : IVec Rows 32) : FVec F Rows .f32 :=
  select
    (Host.reduce IntOp.andi
      (andi (cmpi .sge (wrapIdx hb hc idx) (broadcastInDim Rows1 ![] hb1 (constantI Scal 32 0#32)))
        (cmpi .sle (wrapIdx hb hc idx)
          (broadcastInDim Rows1 ![0, 1, 2] h33 (broadcastInDim One3 ![2] h13 (constantI One1 32 262143#32)))))
      (constantI Scal 1 1#1) hr hp)
    (Host.gather G pos (wrapIdx hb hc idx))
    (broadcastInDim Rows ![] hb (constant Scal .f32 0x7FC00000#32))

/-- `concatenate([a, b], axis=1).reshape(-1)`. -/
def flatRows (hcat : Shape.Concatenates [Rows, Rows] Rows2 1) (hc : Rows2.ShapeCasts Flat)
    (a b : FVec F Rows .f32) : FVec F Flat .f32 :=
  shapeCast Flat (concatenate Rows2 1 [⟨Rows, a⟩, ⟨Rows, b⟩] hcat) hc

end Cert.Resample

end
-- ==== Proof.ResampledBlocks.lean ====
/-
  The resampled array, block by block.

  The call runs on a grid of 16 points; point `t` stages rows `8t … 8t+7` (all 262144 columns) of the
  gathered array and of the noise, and writes back the same rows of the result.  The body is pointwise:
  entry `j` of the block it stores is `g j + z j · σ`.  Since the three windows move together (same row
  block, column block 0) what point `t` writes back is rows `8t … 8t+7` of ONE whole-array function,
  `noisy g z = fun i => g i + z i · σ`, and since row `r` lies in the block of point `r / 8` the sixteen
  blocks cover the array: after the run the result array IS `noisy g z`.
-/
import proofs.«152640_j3813930959349_2_alg».proof.Proof.Gen.KernelIdeal.Frame
import Idealize.ShloMosaic.Lib.Pipeline.Value

noncomputable section

namespace Cert.KernelIdeal.Resampled

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's loads and its store start at row 0, column 0 of the staged block. -/
theorem zero_offsets : (![0, 0] : Fin 2 → Nat) = fun _ => 0 := funext fun a => by fin_cases a <;> rfl

/-- The result as one function of the gathered array `g` and the noise `z`: entry `i` is `g i + z i · σ`,
    `σ` the 32-bit word the body splats. -/
abbrev noisy (g z : S128x262144.Idx → Elt F .f32) : S128x262144.Idx → Elt F .f32 :=
  fun i => FloatOps.addf (g i) (FloatOps.mulf (z i) (Scalar.ofBits .f32 0x3D4CCCCD#32))

/-- The body's stored value, entry by entry: the cast to the block's own shape is the identity, the rest is pointwise. -/
theorem stored_eq (x0 x1 : Vec F S8x262144 .f32) :
    k0_pay1 x0 x1 = fun j => FloatOps.addf (x0 j) (FloatOps.mulf (x1 j) (Scalar.ofBits .f32 0x3D4CCCCD#32)) := by
  unfold k0_pay1
  rw [shapeCast_self]
  rfl

/-- The three windows move together: at every point the two inputs' row block is the output's, the column
    block is 0, and the row block is at most 15. -/
theorem same_blocks : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) = 0 :=
  (by decide +kernel : ∀ t : Fin grid0.N, _)

/-- Every one of the 16 row blocks is some point's. -/
theorem row_block_onto : ∀ q : Fin 16, ∃ t : Fin cfg0.N, win0_2.index t = ![q.val, 0] :=
  (by decide +kernel : ∀ q : Fin 16, ∃ t : Fin grid0.N, win0_2.index t = ![q.val, 0])

/-- Over ANY two arrays `A0`, `A1` of the staged shape: if `X0`, `X1` are the blocks of `A0`, `A1` that windows 0 and 1
    stage at point `t`, then the pointwise `X0 + X1 · σ`, as written back through window 2, is window 2's block of
    `noisy A0 A1` — an element of the block at `t` sits at row `8 · (row block) + its row`, column `its column`, in
    all three arrays alike. -/
theorem written_block (A0 A1 : S128x262144.Idx → Elt F .f32) (t : Fin cfg0.N)
    (X0 X1 : Vec F S8x262144 .f32)
    (hX0 : X0 = ((cfg0.win 0).blk t).view.read (Elt F) A0) (hX1 : X1 = ((cfg0.win 1).blk t).view.read (Elt F) A1) :
    (cfg0.win 2).cut (grid0.coords t) (fun j => FloatOps.addf (X0 j) (FloatOps.mulf (X1 j) (Scalar.ofBits .f32 0x3D4CCCCD#32)))
      = ((cfg0.win 2).blk t).view.read (Elt F) (noisy A0 A1) := by
  subst hX0 hX1
  obtain ⟨e0, e1, e2, e3, e4, e5⟩ := same_blocks t
  funext j
  show FloatOps.addf (A0 (((cfg0.win 0).blk t).view.emb j)) (FloatOps.mulf (A1 (((cfg0.win 1).blk t).view.emb j)) (Scalar.ofBits .f32 0x3D4CCCCD#32))
     = FloatOps.addf (A0 (((cfg0.win 2).blk t).view.emb j)) (FloatOps.mulf (A1 (((cfg0.win 2).blk t).view.emb j)) (Scalar.ofBits .f32 0x3D4CCCCD#32))
  have h0 : ((cfg0.win 0).blk t).view.emb j = ((cfg0.win 2).blk t).view.emb j := by
    funext a; apply Fin.ext
    match a with
    | ⟨0, _⟩ => show win0_0.index t (0 : Fin 2) * 8 + 1 * (j 0).val = win0_2.index t (0 : Fin 2) * 8 + 1 * (j 0).val; omega
    | ⟨1, _⟩ => show win0_0.index t (1 : Fin 2) * 262144 + 1 * (j 1).val = win0_2.index t (1 : Fin 2) * 262144 + 1 * (j 1).val; omega
  have h1 : ((cfg0.win 1).blk t).view.emb j = ((cfg0.win 2).blk t).view.emb j := by
    funext a; apply Fin.ext
    match a with
    | ⟨0, _⟩ => show win0_1.index t (0 : Fin 2) * 8 + 1 * (j 0).val = win0_2.index t (0 : Fin 2) * 8 + 1 * (j 0).val; omega
    | ⟨1, _⟩ => show win0_1.index t (1 : Fin 2) * 262144 + 1 * (j 1).val = win0_2.index t (1 : Fin 2) * 262144 + 1 * (j 1).val; omega
  rw [h0, h1]

/-- The staged blocks at point `t` are read off the two arrays as the call finds them. -/
theorem staged0 (c : Dev nD) (t : Fin cfg0.N) : iblk m c 0 t = ((cfg0.win 0).blk t).view.read (Elt F) (V m c main_v0) := by
  unfold iblk; rfl
theorem staged1 (c : Dev nD) (t : Fin cfg0.N) : iblk m c 1 t = ((cfg0.win 1).blk t).view.read (Elt F) (V m c main_arg2) := by
  unfold iblk; rfl

/-- What point `t` writes back is its block of `noisy` of the two staged arrays as the call finds them. -/
theorem flushed_eq (c : Dev nD) (t : Fin cfg0.N) :
    (dats m 0 c).flushed 2 t = ((cfg0.win 2).blk t).view.read (Elt F) (noisy (V m c main_v0) (V m c main_arg2)) := by
  show (cfg0.win 2).cut (grid0.coords t) ((dats m 0 c).after 2 t) = _
  rw [after0_2]
  unfold out0_2
  rw [View.canon_unit_zero zero_offsets]
  simp only [View.ld_unit_zero (S := S8x262144) zero_offsets]
  rw [stored_eq]
  exact written_block (V m c main_v0) (V m c main_arg2) t (iblk m c 0 t) (iblk m c 1 t) (staged0 m c t) (staged1 m c t)

/-- An index of the result array is in point `t`'s block iff each coordinate is in the block's range on its axis. -/
theorem mem_block (t : Fin cfg0.N) (i : S128x262144.Idx) :
    i ∈ ((cfg0.win 2).blk t).view.set ↔ ∀ a : Fin 2, win0_2.index t a * S8x262144.size a ≤ (i a).val ∧ (i a).val < win0_2.index t a * S8x262144.size a + S8x262144.size a := by
  show i ∈ ((View.whole main_v1).slice (win0_2.rect t)).set ↔ _
  rw [View.set_slice_whole, Rect.mem_set_unit]
  exact Iff.rfl

/-- Row `r` lies in the block of the point whose row block is `r / 8`: the sixteen blocks cover the array. -/
theorem covered (i : S128x262144.Idx) :
    ∃ t : Fin cfg0.N, (cfg0.win 2).flush t = true ∧ i ∈ ((cfg0.win 2).blk t).view.set := by
  have hi0 : (i 0).val < 128 := (i 0).isLt
  have hi1 : (i 1).val < 262144 := (i 1).isLt
  obtain ⟨t, ht⟩ := row_block_onto ⟨(i 0).val / 8, by omega⟩
  have q0 : win0_2.index t (0 : Fin 2) = (i 0).val / 8 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 262144 ≤ (i 1).val ∧ (i 1).val < win0_2.index t (1 : Fin 2) * 262144 + 262144; omega

/-- The result array after the run is `noisy` of the gathered array and the noise as the call finds them. -/
theorem final (c : Dev nD) : (dats m 0 c).arrAt 2 cfg0.N = noisy (V m c main_v0) (V m c main_arg2) :=
  (dats m 0 c).arrAt_eq_of_cover 2 (noisy (V m c main_v0) (V m c main_arg2)) (fun t _ => flushed_eq m c t) covered

end Cert.KernelIdeal.Resampled

end
-- ==== Proof.KernelValue.lean ====
/-
  The idealized kernel program's result, as one function of its three arguments.

  The program runs in three stretches.  BEFORE the call, the host gathers `positions` along each row by `idx`
  (`rowGather`); its result is the first operand the call stages, and the noise argument is the second.
  THE CALL leaves the result array at `noisy g z`, entry by entry `g + z · σ` (the blocks module).  AFTER the
  call, the host lays `positions` and that array side by side per row and flattens (`flatRows`).  So the
  program's result is `flatRows positions (noisy (rowGather positions idx) noise)`, and its arguments end unchanged.
-/
import proofs.«152640_j3813930959349_2_alg».proof.Proof.Gen.KernelIdeal.Frame
import proofs.«152640_j3813930959349_2_alg».proof.Proof.SharedHost
import proofs.«152640_j3813930959349_2_alg».proof.Proof.ResampledBlocks
import Idealize.ShloMosaic.Lib.StableHlo.Run

noncomputable section

namespace Cert.KernelIdeal.Resampled

open Cert.KernelIdeal Cert.KernelIdeal.Gen Idealize.ShloMosaic Idealize.ShloMosaic.TcCoe Idealize.SL.Sem
open Idealize.ShloMosaic.StableHlo
open Idealize.ShloMosaic.Pipeline (Dat)
open Cert.Resample (rowGather wrapIdx flatRows)

variable {F : FTy → Type} [FloatOps F]
variable (m : (ℓ : Loc nD τ sig) → Buf (Elt F) ℓ) (ρ : Dev nD → PrngReg)

/-- The gather of `positions` by `idx`, over this program's proofs of the shape relations. -/
abbrev gatheredOf (pos : FVec F S128x262144 .f32) (idx : IVec S128x262144 32) : FVec F S128x262144 .f32 :=
  rowGather Gen.bcast_S_S128x262144 Gen.shapeCasts_S128x262144_S128x262144x1 Gen.bcast_S_S128x262144x1
    Gen.bcast_S1_S1x1x1_2 Gen.bcast_S1x1x1_S128x262144x1_0_1_2 Gen.reducesTo_S128x262144x1_S128x262144_d2 Gen.h_S_
    gather_S128x262144_S128x262144x1_S128x262144_n_1_0_0_1_2_11 pos idx

/-- The rows `[a | b]` flattened, over this program's proofs of the shape relations. -/
abbrev flatOf (a b : FVec F S128x262144 .f32) : FVec F S67108864 .f32 :=
  flatRows Gen.concatenates_S128x262144_S128x262144_S128x524288_d1 Gen.shapeCasts_S128x524288_S67108864 a b

/-- The 22 host operations before the call, spelled over the buffers themselves: operation by operation the same
    functions of the same buffers as the program's `take_along_axis`. -/
abbrev gatherOps : List (HloOp τ sig (Elt F)) :=
  [ StableHlo.nullary main_call0_c (constantI S_ 32 0#32 : (⟨S_, .i32⟩ : BufTy).Contents (Elt F)),
    StableHlo.unary main_call0_c main_call0_v0 (broadcastInDim S128x262144 ![] bcast_S_S128x262144 : (⟨S_, .i32⟩ : BufTy).Contents (Elt F) → (⟨S128x262144, .i32⟩ : BufTy).Contents (Elt F)),
    StableHlo.binary main_arg1 main_call0_v0 main_call0_v1 (cmpi .slt : (⟨S128x262144, .i32⟩ : BufTy).Contents (Elt F) → (⟨S128x262144, .i32⟩ : BufTy).Contents (Elt F) → (⟨S128x262144, .i1⟩ : BufTy).Contents (Elt F)),
    StableHlo.nullary main_call0_c_0 (constantI S_ 32 262144#32 : (⟨S_, .i32⟩ : BufTy).Contents (Elt F)),
    StableHlo.unary main_call0_c_0 main_call0_v2 (broadcastInDim S128x262144 ![] bcast_S_S128x262144 : (⟨S_, .i32⟩ : BufTy).Contents (Elt F) → (⟨S128x262144, .i32⟩ : BufTy).Contents (Elt F)),
    StableHlo.binary main_arg1 main_call0_v2 main_call0_v3 (addi : (⟨S128x262144, .i32⟩ : BufTy).Contents (Elt F) → (⟨S128x262144, .i32⟩ : BufTy).Contents (Elt F) → (⟨S128x262144, .i32⟩ : BufTy).Contents (Elt F)),
    StableHlo.ternary main_call0_v1 main_call0_v3 main_arg1 main_call0_v4 (select : (⟨S128x262144, .i1⟩ : BufTy).Contents (Elt F) → (⟨S128x262144, .i32⟩ : BufTy).Contents (Elt F) → (⟨S128x262144, .i32⟩ : BufTy).Contents (Elt F) → (⟨S128x262144, .i32⟩ : BufTy).Contents (Elt F)),
    StableHlo.reshape main_call0_v4 main_call0_v5 rfl shapeCasts_S128x262144_S128x262144x1,
    StableHlo.nullary main_call0_c_1 (constantI S1 32 262143#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S128x262144x1 ![] bcast_S_S128x262144x1 : (⟨S_, .i32⟩ : BufTy).Contents (Elt F) → (⟨S128x262144x1, .i32⟩ : BufTy).Contents (Elt F)),
    StableHlo.binary main_call0_v5 main_call0_v6 main_call0_v7 (cmpi .sge : (⟨S128x262144x1, .i32⟩ : BufTy).Contents (Elt F) → (⟨S128x262144x1, .i32⟩ : BufTy).Contents (Elt F) → (⟨S128x262144x1, .i1⟩ : BufTy).Contents (Elt F)),
    StableHlo.unary main_call0_c_1 main_call0_v8 (broadcastInDim S1x1x1 ![2] bcast_S1_S1x1x1_2 : (⟨S1, .i32⟩ : BufTy).Contents (Elt F) → (⟨S1x1x1, .i32⟩ : BufTy).Contents (Elt F)),
    StableHlo.unary main_call0_v8 main_call0_v9 (broadcastInDim S128x262144x1 ![0, 1, 2] bcast_S1x1x1_S128x262144x1_0_1_2 : (⟨S1x1x1, .i32⟩ : BufTy).Contents (Elt F) → (⟨S128x262144x1, .i32⟩ : BufTy).Contents (Elt F)),
    StableHlo.binary main_call0_v5 main_call0_v9 main_call0_v10 (cmpi .sle : (⟨S128x262144x1, .i32⟩ : BufTy).Contents (Elt F) → (⟨S128x262144x1, .i32⟩ : BufTy).Contents (Elt F) → (⟨S128x262144x1, .i1⟩ : BufTy).Contents (Elt F)),
    StableHlo.binary main_call0_v7 main_call0_v10 main_call0_v11 (andi : (⟨S128x262144x1, .i1⟩ : BufTy).Contents (Elt F) → (⟨S128x262144x1, .i1⟩ : BufTy).Contents (Elt F) → (⟨S128x262144x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 (fun x v => Host.reduce IntOp.andi x v reducesTo_S128x262144x1_S128x262144_d2 h_S_ : (⟨S128x262144x1, .i1⟩ : BufTy).Contents (Elt F) → (⟨S_, .i1⟩ : BufTy).Contents (Elt F) → (⟨S128x262144, .i1⟩ : BufTy).Contents (Elt F)),
    StableHlo.binary main_arg0 main_call0_v5 main_call0_v13 (fun x i => Host.gather gather_S128x262144_S128x262144x1_S128x262144_n_1_0_0_1_2_11 x i : (⟨S128x262144, .f32⟩ : BufTy).Contents (Elt F) → (⟨S128x262144x1, .i32⟩ : BufTy).Contents (Elt F) → (⟨S128x262144, .f32⟩ : BufTy).Contents (Elt F)),
    StableHlo.nullary main_call0_cst (constant S_ .f32 0x7FC00000#32 : (⟨S_, .f32⟩ : BufTy).Contents (Elt F)),
    StableHlo.unary main_call0_cst main_call0_v14 (broadcastInDim S128x262144 ![] bcast_S_S128x262144 : (⟨S_, .f32⟩ : BufTy).Contents (Elt F) → (⟨S128x262144, .f32⟩ : BufTy).Contents (Elt F)),
    StableHlo.ternary main_call0_v12 main_call0_v13 main_call0_v14 main_v0 (select : (⟨S128x262144, .i1⟩ : BufTy).Contents (Elt F) → (⟨S128x262144, .f32⟩ : BufTy).Contents (Elt F) → (⟨S128x262144, .f32⟩ : BufTy).Contents (Elt F) → (⟨S128x262144, .f32⟩ : BufTy).Contents (Elt F)) ]

section Stretches
-- each host operation is taken as a whole: the equations below say WHICH operations are applied to which arrays,
-- and never what an operation computes
attribute [local irreducible] Host.gather Host.reduce select cmpi addi andi shapeCast broadcastInDim constantI constant concatenate

/-- The program's own spelling of the 22 operations denotes that list. -/
theorem hostOps0_eq : (hostOps0 : List (HloOp τ sig (Elt F))) = gatherOps := rfl

set_option maxHeartbeats 4000000 in
/-- The first staged array, as the call finds it, is the gather of the two arguments as launched. -/
theorem gathered (c : Dev nD) :
    (V m c main_v0 : S128x262144.Idx → F .f32)
      = gatheredOf (m ((c.tc : Thread nD τ).loc main_arg0)) (m ((c.tc : Thread nD τ).loc main_arg1)) := by
  show StableHlo.after hostOps0 (fun b => m (c, b)) (Proc.devRef .tc main_v0) = _
  rw [hostOps0_eq]
  after_results
  unfold gatheredOf rowGather wrapIdx
  rfl

set_option maxHeartbeats 1000000 in
/-- The program's result is the rows `[positions | result array of the call]` flattened. -/
theorem flattened (c : Dev nD) :
    (Pipeline.afterTail₀ cfgs (dats m) 0 (V0 m) [hostOps1] c main_v3 : S67108864.Idx → F .f32)
      = flatOf (m ((c.tc : Thread nD τ).loc main_arg0)) ((dats m 0 c).arrAt 2 cfg0.N) := by
  have e0 : Pipeline.withArrays (cfgs 0).spec c (V0 m c) (fun w => (dats m 0 c).arrAt w (cfgs 0).N) (Proc.devRef .tc main_arg0)
      = m ((c.tc : Thread nD τ).loc main_arg0) :=
    (Pipeline.withArrays_of_ne _ c (V0 m c) _ main_arg0 (by exact (by decide : ∀ w, Pipeline.arrRef spec0 w ≠ main_arg0))).trans
      (V_main_arg0 m c)
  have e1 : Pipeline.withArrays (cfgs 0).spec c (V0 m c) (fun w => (dats m 0 c).arrAt w (cfgs 0).N) (Proc.devRef .tc main_v1)
      = (dats m 0 c).arrAt 2 cfg0.N :=
    Pipeline.withArrays_arr spec0 launch0.win.arr_inj c _ _ 2
  unfold Pipeline.afterTail₀
  show StableHlo.after hostOps1 _ (Proc.devRef .tc main_v3) = _
  after_results
  rw [e0, e1]
  unfold flatOf flatRows
  rfl

end Stretches

/-- Every weakly fair execution of the program terminates with its result at
    `flatRows positions (noisy (rowGather positions idx) noise)` and its arguments unchanged. -/
theorem run : θ_run defs (onTc (τ := τ) (main (F := F))) ⟨m, fun _ => 0, ρ⟩ fun r => ∀ c : Dev nD,
      r.2.mem ((c.tc : Thread nD τ).loc main_v3)
        = flatOf (m ((c.tc : Thread nD τ).loc main_arg0))
            (noisy (gatheredOf (m ((c.tc : Thread nD τ).loc main_arg0)) (m ((c.tc : Thread nD τ).loc main_arg1)))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
      ((h c).2 main_v3 (Pipeline.mem_restRefs_of main_v3 (by decide) (by decide))).trans
        ((flattened m c).trans (by rw [final m c, gathered m c, V_main_arg2 m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.Resampled

end
-- ==== Proof.ReferenceValue.lean ====
/-
  The idealized reference program's result, as one function of its three arguments.

  The reference is host operations only: it gathers `positions` along each row by `idx` (`rowGather`, the same
  function the kernel program applies), multiplies the broadcast of `σ` by the noise, adds the two, lays `positions`
  and that sum side by side per row and flattens (`flatRows`).  So its result is
  `flatRows positions (rowGather positions idx + σ · noise)`, and its arguments end unchanged.
-/
import proofs.«152640_j3813930959349_2_alg».proof.Proof.ReferenceRunPatched
import proofs.«152640_j3813930959349_2_alg».proof.Proof.SharedHost

noncomputable section

namespace Cert.ReferenceIdeal.Resampled

open Cert.ReferenceIdeal Cert.ReferenceIdeal.Gen Idealize.ShloMosaic Idealize.ShloMosaic.TcCoe Idealize.SL.Sem
open Idealize.ShloMosaic.StableHlo
open Cert.ReferenceIdeal.RunP (ops run_after)
open Cert.Resample (rowGather wrapIdx flatRows)

variable {F : FTy → Type} [FloatOps F]
variable (m : (ℓ : Loc nD τ sig) → Buf (Elt F) ℓ) (ρ : Dev nD → PrngReg)

/-- The gather of `positions` by `idx`, over this program's proofs of the shape relations. -/
abbrev gatheredOf (pos : FVec F S128x262144 .f32) (idx : IVec S128x262144 32) : FVec F S128x262144 .f32 :=
  rowGather Gen.bcast_S_S128x262144 Gen.shapeCasts_S128x262144_S128x262144x1 Gen.bcast_S_S128x262144x1
    Gen.bcast_S1_S1x1x1_2 Gen.bcast_S1x1x1_S128x262144x1_0_1_2 Gen.reducesTo_S128x262144x1_S128x262144_d2 Gen.h_S_
    gather_S128x262144_S128x262144x1_S128x262144_n_1_0_0_1_2_11 pos idx

/-- The rows `[a | b]` flattened, over this program's proofs of the shape relations. -/
abbrev flatOf (a b : FVec F S128x262144 .f32) : FVec F S67108864 .f32 :=
  flatRows Gen.concatenates_S128x262144_S128x262144_S128x524288_d1 Gen.shapeCasts_S128x524288_S67108864 a b

/-- The reference's sum: the gathered array plus `σ · noise`, `σ` a rank-0 constant broadcast over the array. -/
abbrev scaledSum (g z : FVec F S128x262144 .f32) : FVec F S128x262144 .f32 :=
  addf g (mulf (broadcastInDim S128x262144 ![] Gen.bcast_S_S128x262144 (constant S_ .f32 0x3D4CCCCD#32)) z)

/-- The program's 28 host operations spelled over the buffers themselves: operation by operation the same functions of
    the same buffers (the first 22 are its `take_along_axis`). -/
abbrev plainOps : List (HloOp τ sig (Elt F)) :=
  [ StableHlo.nullary main_call0_c (constantI S_ 32 0#32 : (⟨S_, .i32⟩ : BufTy).Contents (Elt F)),
    StableHlo.unary main_call0_c main_call0_v0 (broadcastInDim S128x262144 ![] bcast_S_S128x262144 : (⟨S_, .i32⟩ : BufTy).Contents (Elt F) → (⟨S128x262144, .i32⟩ : BufTy).Contents (Elt F)),
    StableHlo.binary main_arg1 main_call0_v0 main_call0_v1 (cmpi .slt : (⟨S128x262144, .i32⟩ : BufTy).Contents (Elt F) → (⟨S128x262144, .i32⟩ : BufTy).Contents (Elt F) → (⟨S128x262144, .i1⟩ : BufTy).Contents (Elt F)),
    StableHlo.nullary main_call0_c_0 (constantI S_ 32 262144#32 : (⟨S_, .i32⟩ : BufTy).Contents (Elt F)),
    StableHlo.unary main_call0_c_0 main_call0_v2 (broadcastInDim S128x262144 ![] bcast_S_S128x262144 : (⟨S_, .i32⟩ : BufTy).Contents (Elt F) → (⟨S128x262144, .i32⟩ : BufTy).Contents (Elt F)),
    StableHlo.binary main_arg1 main_call0_v2 main_call0_v3 (addi : (⟨S128x262144, .i32⟩ : BufTy).Contents (Elt F) → (⟨S128x262144, .i32⟩ : BufTy).Contents (Elt F) → (⟨S128x262144, .i32⟩ : BufTy).Contents (Elt F)),
    StableHlo.ternary main_call0_v1 main_call0_v3 main_arg1 main_call0_v4 (select : (⟨S128x262144, .i1⟩ : BufTy).Contents (Elt F) → (⟨S128x262144, .i32⟩ : BufTy).Contents (Elt F) → (⟨S128x262144, .i32⟩ : BufTy).Contents (Elt F) → (⟨S128x262144, .i32⟩ : BufTy).Contents (Elt F)),
    StableHlo.reshape main_call0_v4 main_call0_v5 rfl shapeCasts_S128x262144_S128x262144x1,
    StableHlo.nullary main_call0_c_1 (constantI S1 32 262143#32 : (⟨S1, .i32⟩ : BufTy).Contents (Elt F)),
    StableHlo.nullary main_call0_c_2 (constantI S_ 32 0#32 : (⟨S_, .i32⟩ : BufTy).Contents (Elt F)),
    StableHlo.unary main_call0_c_2 main_call0_v6 (broadcastInDim S128x262144x1 ![] bcast_S_S128x262144x1 : (⟨S_, .i32⟩ : BufTy).Contents (Elt F) → (⟨S128x262144x1, .i32⟩ : BufTy).Contents (Elt F)),
    StableHlo.binary main_call0_v5 main_call0_v6 main_call0_v7 (cmpi .sge : (⟨S128x262144x1, .i32⟩ : BufTy).Contents (Elt F) → (⟨S128x262144x1, .i32⟩ : BufTy).Contents (Elt F) → (⟨S128x262144x1, .i1⟩ : BufTy).Contents (Elt F)),
    StableHlo.unary main_call0_c_1 main_call0_v8 (broadcastInDim S1x1x1 ![2] bcast_S1_S1x1x1_2 : (⟨S1, .i32⟩ : BufTy).Contents (Elt F) → (⟨S1x1x1, .i32⟩ : BufTy).Contents (Elt F)),
    StableHlo.unary main_call0_v8 main_call0_v9 (broadcastInDim S128x262144x1 ![0, 1, 2] bcast_S1x1x1_S128x262144x1_0_1_2 : (⟨S1x1x1, .i32⟩ : BufTy).Contents (Elt F) → (⟨S128x262144x1, .i32⟩ : BufTy).Contents (Elt F)),
    StableHlo.binary main_call0_v5 main_call0_v9 main_call0_v10 (cmpi .sle : (⟨S128x262144x1, .i32⟩ : BufTy).Contents (Elt F) → (⟨S128x262144x1, .i32⟩ : BufTy).Contents (Elt F) → (⟨S128x262144x1, .i1⟩ : BufTy).Contents (Elt F)),
    StableHlo.binary main_call0_v7 main_call0_v10 main_call0_v11 (andi : (⟨S128x262144x1, .i1⟩ : BufTy).Contents (Elt F) → (⟨S128x262144x1, .i1⟩ : BufTy).Contents (Elt F) → (⟨S128x262144x1, .i1⟩ : BufTy).Contents (Elt F)),
    StableHlo.nullary main_call0_c_3 (constantI S_ 1 1#1 : (⟨S_, .i1⟩ : BufTy).Contents (Elt F)),
    StableHlo.binary main_call0_v11 main_call0_c_3 main_call0_v12 (fun x v => Host.reduce IntOp.andi x v reducesTo_S128x262144x1_S128x262144_d2 h_S_ : (⟨S128x262144x1, .i1⟩ : BufTy).Contents (Elt F) → (⟨S_, .i1⟩ : BufTy).Contents (Elt F) → (⟨S128x262144, .i1⟩ : BufTy).Contents (Elt F)),
    StableHlo.binary main_arg0 main_call0_v5 main_call0_v13 (fun x i => Host.gather gather_S128x262144_S128x262144x1_S128x262144_n_1_0_0_1_2_11 x i : (⟨S128x262144, .f32⟩ : BufTy).Contents (Elt F) → (⟨S128x262144x1, .i32⟩ : BufTy).Contents (Elt F) → (⟨S128x262144, .f32⟩ : BufTy).Contents (Elt F)),
    StableHlo.nullary main_call0_cst (constant S_ .f32 0x7FC00000#32 : (⟨S_, .f32⟩ : BufTy).Contents (Elt F)),
    StableHlo.unary main_call0_cst main_call0_v14 (broadcastInDim S128x262144 ![] bcast_S_S128x262144 : (⟨S_, .f32⟩ : BufTy).Contents (Elt F) → (⟨S128x262144, .f32⟩ : BufTy).Contents (Elt F)),
    StableHlo.ternary main_call0_v12 main_call0_v13 main_call0_v14 main_v0 (select : (⟨S128x262144, .i1⟩ : BufTy).Contents (Elt F) → (⟨S128x262144, .f32⟩ : BufTy).Contents (Elt F) → (⟨S128x262144, .f32⟩ : BufTy).Contents (Elt F) → (⟨S128x262144, .f32⟩ : BufTy).Contents (Elt F)),
    StableHlo.nullary main_cst (constant S_ .f32 0x3D4CCCCD#32),
    StableHlo.unary main_cst main_v1 (broadcastInDim S128x262144 ![] bcast_S_S128x262144 : (⟨S_, .f32⟩ : BufTy).Contents (Elt F) → (⟨S128x262144, .f32⟩ : BufTy).Contents (Elt F)),
    StableHlo.binary main_v1 main_arg2 main_v2 (mulf : (⟨S128x262144, .f32⟩ : BufTy).Contents (Elt F) → (⟨S128x262144, .f32⟩ : BufTy).Contents (Elt F) → (⟨S128x262144, .f32⟩ : BufTy).Contents (Elt F)),
    StableHlo.binary main_v0 main_v2 main_v3 (addf : (⟨S128x262144, .f32⟩ : BufTy).Contents (Elt F) → (⟨S128x262144, .f32⟩ : BufTy).Contents (Elt F) → (⟨S128x262144, .f32⟩ : BufTy).Contents (Elt F)),
    StableHlo.binary main_arg0 main_v3 main_v4 ((fun a b => concatenate S128x524288 1 [⟨S128x262144, a⟩, ⟨S128x262144, b⟩] concatenates_S128x262144_S128x262144_S128x524288_d1) : (⟨S128x262144, .f32⟩ : BufTy).Contents (Elt F) → (⟨S128x262144, .f32⟩ : BufTy).Contents (Elt F) → (⟨S128x524288, .f32⟩ : BufTy).Contents (Elt F)),
    StableHlo.reshape main_v4 main_v5 rfl shapeCasts_S128x524288_S67108864 ]

section Stretches
-- each host operation is taken as a whole: the equations below say WHICH operations are applied to which arrays,
-- and never what an operation computes
attribute [local irreducible] Host.gather Host.reduce select cmpi addi andi shapeCast broadcastInDim constantI constant concatenate addf mulf

/-- The program's own spelling of its operations denotes that list. -/
theorem ops_eq : (ops : List (HloOp τ sig (Elt F))) = plainOps := rfl

set_option maxHeartbeats 4000000 in
/-- The result buffer after the 28 operations is `flatRows positions (rowGather positions idx + σ · noise)` of the
    arguments as launched. -/
theorem result_eq (c : Dev nD) :
    (after ops (launchContents m c) (Proc.devRef .tc main_v5) : S67108864.Idx → F .f32)
      = flatOf (m ((c.tc : Thread nD τ).loc main_arg0))
          (scaledSum (gatheredOf (m ((c.tc : Thread nD τ).loc main_arg0)) (m ((c.tc : Thread nD τ).loc main_arg1)))
            (m ((c.tc : Thread nD τ).loc main_arg2))) := by
  rw [ops_eq]
  after_results
  unfold flatOf flatRows scaledSum gatheredOf rowGather wrapIdx
  rfl

end Stretches

set_option maxHeartbeats 2000000 in
/-- No operation writes an argument's buffer. -/
theorem kept (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2) :=
  ⟨by after_results <;> rfl, by after_results <;> rfl, by after_results <;> rfl⟩

/-- Every weakly fair execution of the reference terminates with its result at
    `flatRows positions (rowGather positions idx + σ · noise)` and its arguments unchanged. -/
theorem run : θ_run defs (onTc (τ := τ) (main (F := F))) ⟨m, fun _ => 0, ρ⟩ fun r => ∀ c : Dev nD,
      r.2.mem ((c.tc : Thread nD τ).loc main_v5)
        = flatOf (m ((c.tc : Thread nD τ).loc main_arg0))
            (scaledSum (gatheredOf (m ((c.tc : Thread nD τ).loc main_arg0)) (m ((c.tc : Thread nD τ).loc main_arg1)))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v5).trans (result_eq m c),
      (h c main_arg0).trans (kept m c).1,
      (h c main_arg1).trans (kept m c).2.1,
      (h c main_arg2).trans (kept m c).2.2⟩)
    (run_after m ρ)

end Cert.ReferenceIdeal.Resampled

end
-- ==== Proof.lean ====
/-
  The certificate of the resampling kernel against its jnp reference, over the extended reals.

  Both programs return, for 128 rows of 262144 positions each, the flattened rows
  `[positions | take_along_axis(positions, idx, axis=1) + σ · noise]`.  The kernel program gathers on the host, adds the
  scaled noise in a pallas call over 16 row blocks of 8 rows, and concatenates and flattens on the host again; the
  reference does all of it on the host.  The gather and the concatenate-and-flatten are the same two functions on both
  sides (`rowGather`, `flatRows`); what the call leaves is `g + z · σ` entry by entry, what the reference adds is
  `g + σ · z`, and the two agree on every extended real because multiplication there is commutative.  So the two results
  are one function of the arguments, and the precondition (finite inputs) is not used.

  The frames of the two kernel programs are the generated ones; the reference's frame is its run with the result
  dropped; the idealization rewrote nothing, so `preserves` is `True`.
-/
import proofs.«152640_j3813930959349_2_alg».proof.Defs
import proofs.«152640_j3813930959349_2_alg».proof.Proof.Gen.Kernel
import proofs.«152640_j3813930959349_2_alg».proof.Proof.Gen.Kernel.Skeleton
import proofs.«152640_j3813930959349_2_alg».proof.Proof.Gen.Kernel.Launch
import proofs.«152640_j3813930959349_2_alg».proof.Proof.Gen.Kernel.Points
import proofs.«152640_j3813930959349_2_alg».proof.Proof.Gen.Kernel.Frame
import proofs.«152640_j3813930959349_2_alg».proof.Proof.Gen.KernelIdeal
import proofs.«152640_j3813930959349_2_alg».proof.Proof.Gen.KernelIdeal.Skeleton
import proofs.«152640_j3813930959349_2_alg».proof.Proof.Gen.KernelIdeal.Launch
import proofs.«152640_j3813930959349_2_alg».proof.Proof.Gen.KernelIdeal.Points
import proofs.«152640_j3813930959349_2_alg».proof.Proof.Gen.KernelIdeal.Frame
import proofs.«152640_j3813930959349_2_alg».proof.Proof.Gen.ReferenceIdeal
import proofs.«152640_j3813930959349_2_alg».proof.Proof.Gen.Pre_finite_inputs
import proofs.«152640_j3813930959349_2_alg».proof.Proof.ScaleComm
import proofs.«152640_j3813930959349_2_alg».proof.Proof.KernelValue
import proofs.«152640_j3813930959349_2_alg».proof.Proof.ReferenceValue
import Idealize.ShloMosaic.Adequacy
import Idealize.ShloMosaic.Init

noncomputable section

namespace Cert.Proof

open Idealize.ShloMosaic Idealize.SL.Sem

/-- The two programs' results are one function of the arguments: the same gather goes into the same sum up to the order
    of the factors of `σ · noise`, and the same flattening is applied to it. -/
theorem results_agree (a0 : FVec Ideal Cert.Resample.Rows .f32) (a1 : IVec Cert.Resample.Rows 32)
    (a2 : FVec Ideal Cert.Resample.Rows .f32) :
    Cert.ReferenceIdeal.Resampled.flatOf (F := Ideal) a0
        (Cert.ReferenceIdeal.Resampled.scaledSum (Cert.ReferenceIdeal.Resampled.gatheredOf a0 a1) a2)
      = Cert.KernelIdeal.Resampled.flatOf (F := Ideal) a0
        (Cert.KernelIdeal.Resampled.noisy (F := Ideal) (Cert.KernelIdeal.Resampled.gatheredOf a0 a1) a2) := by
  have hg : Cert.ReferenceIdeal.Resampled.gatheredOf (F := Ideal) a0 a1
      = Cert.KernelIdeal.Resampled.gatheredOf (F := Ideal) a0 a1 := rfl
  have hs : ∀ g : FVec Ideal Cert.Resample.Rows .f32,
      Cert.ReferenceIdeal.Resampled.scaledSum (F := Ideal) g a2 = Cert.KernelIdeal.Resampled.noisy (F := Ideal) g a2 := by
    intro g
    exact (Cert.Resample.add_scaled_comm (s := Cert.Resample.Rows) g a2 0x3D4CCCCD#32
      Cert.ReferenceIdeal.Gen.bcast_S_S128x262144).symm
  rw [hg, hs]

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.Resampled.run (F := Ideal) m ρ)

/-- The idealization rewrote no operation. -/
theorem preserves : Cert.preserves_Kernel_KernelIdeal := trivial

/-- From memories that agree on the three arguments both programs end with equal results: the kernel program at
    `flatRows positions (rowGather positions idx + noise · σ)`, the reference at `flatRows positions (rowGather positions idx + σ · noise)`. -/
theorem algebraic : Cert.algebraic_KernelIdeal_ReferenceIdeal := by
  intro m ρ m' ρ' _ hagree
  refine ⟨_, Cert.KernelIdeal.Resampled.run (F := Ideal) m ρ, ?_⟩
  refine (θ_run Cert.ReferenceIdeal.defs _ _).mono (fun _ h c => ⟨(h c).1.trans ?_, (h c).2⟩)
    (Cert.ReferenceIdeal.Resampled.run (F := Ideal) m' ρ')
  rw [(hagree c).1, (hagree c).2.1, (hagree c).2.2]
  exact results_agree _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
